-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1 : S_.BroadcastsInDim S1 (![] : Fin 0 → Fin S1.rank)
  reducesTo_S1_S_d0 : S1.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x64 .f32) (main_arg1 : IVec S800000 32) (main_arg2 : IVec S800000 32) (main_arg3 : FVec F S1 .f32) (main_arg4 : FVec F S256x256 .f32) (main_arg5 : FVec F S256 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1 .f32 := Host.absf main_arg3
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x1 : Shape := ⟨2, ![1, 1]⟩
abbrev S1x256 : Shape := ⟨2, ![1, 256]⟩
abbrev S50000x256 : Shape := ⟨2, ![50000, 256]⟩
abbrev S2000x64 : Shape := ⟨2, ![2000, 64]⟩
abbrev S2000x256 : Shape := ⟨2, ![2000, 256]⟩
abbrev S64x256 : Shape := ⟨2, ![64, 256]⟩

abbrev nBuf : Space → Nat
  | .hbm => 125
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x1, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S50000x64, .f32⟩
  | .hbm, ⟨89, _⟩ => ⟨S50000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x1, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S50000x64, .bf16⟩
  | .hbm, ⟨120, _⟩ => ⟨S50000x64, .bf16⟩
  | .hbm, ⟨121, _⟩ => ⟨S50000x64, .bf16⟩
  | .hbm, ⟨122, _⟩ => ⟨S50000x64, .bf16⟩
  | .hbm, ⟨123, _⟩ => ⟨S1x256, .f32⟩
  | .hbm, ⟨124, _⟩ => ⟨S50000x256, .f32⟩
  | .local _ .vmem, ⟨0, _⟩ => ⟨S2000x64, .bf16⟩
  | .local _ .vmem, ⟨1, _⟩ => ⟨S2000x64, .bf16⟩
  | .local _ .vmem, ⟨2, _⟩ => ⟨S2000x64, .bf16⟩
  | .local _ .vmem, ⟨3, _⟩ => ⟨S2000x64, .bf16⟩
  | .local _ .vmem, ⟨4, _⟩ => ⟨S2000x64, .bf16⟩
  | .local _ .vmem, ⟨5, _⟩ => ⟨S2000x64, .bf16⟩
  | .local _ .vmem, ⟨6, _⟩ => ⟨S2000x64, .bf16⟩
  | .local _ .vmem, ⟨7, _⟩ => ⟨S2000x64, .bf16⟩
  | .local _ .vmem, ⟨8, _⟩ => ⟨S256x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S1 : S_.BroadcastsInDim S1 (![] : Fin 0 → Fin S1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x64_0_1 : S1x1.BroadcastsInDim S50000x64 (![0, 1] : Fin 2 → Fin S50000x64.rank)
  bitsLt_bf16_f32 : FTy.bits .bf16 < FTy.bits .f32
  shapeCasts_S256_S1x256 : S256.ShapeCasts S1x256
  inb_S256x256_S256x256_0_0 : ∀ a, (![0, 0] : Fin 2 → Nat) a + S256x256.size a ≤ S256x256.size a
  h_S256x256 : 0 < S256x256.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  slices_S256x256_o0_0_S64x256 : S256x256.Slices ![0, 0] S64x256
  slices_S256x256_o64_0_S64x256 : S256x256.Slices ![64, 0] S64x256
  slices_S256x256_o128_0_S64x256 : S256x256.Slices ![128, 0] S64x256
  slices_S256x256_o192_0_S64x256 : S256x256.Slices ![192, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x256_S2000x256_1_0_0_1_n_n_wf : DotDims.WF S2000x64 S64x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .bf16 = 32 ∨ (Rect.block (s := S50000x64) S2000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .bf16 = 32 ∨ (Rect.block (s := S50000x64) S2000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S50000x64.size a
  hwx0_2 : ∀ i : grid0.Coords, EltTy.bits .bf16 = 32 ∨ (Rect.block (s := S50000x64) S2000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf

abbrev win0_0 : Pipeline.Window sig grid0 :=
  Pipeline.Window.ofSpec (Memref.whole main_v90) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v91) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v93) S2000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v94) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v95) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S1 : Shape := ⟨1, ![1]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x1 : Shape := ⟨2, ![1, 1]⟩
abbrev S50000x256 : Shape := ⟨2, ![50000, 256]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S1, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S_, .f32⟩
  | .hbm, ⟨14, _⟩ => ⟨S50000, .f32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S50000x1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S50000x64, .f32⟩
  | .hbm, ⟨25, _⟩ => ⟨S50000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S50000x64, .f32⟩
  | .hbm, ⟨40, _⟩ => ⟨S50000x64, .f32⟩
  | .hbm, ⟨41, _⟩ => ⟨S1x1, .f32⟩
  | .hbm, ⟨42, _⟩ => ⟨S50000x64, .f32⟩
  | .hbm, ⟨43, _⟩ => ⟨S50000x64, .f32⟩
  | .hbm, ⟨44, _⟩ => ⟨S_, .f32⟩
  | .hbm, ⟨45, _⟩ => ⟨S1, .f32⟩
  | .hbm, ⟨46, _⟩ => ⟨S1, .f32⟩
  | .hbm, ⟨47, _⟩ => ⟨S1x1, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S1, .f32⟩
  | .hbm, ⟨53, _⟩ => ⟨S1, .f32⟩
  | .hbm, ⟨54, _⟩ => ⟨S50000x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S50000x64, .f32⟩
  | .hbm, ⟨70, _⟩ => ⟨S50000x64, .f32⟩
  | .hbm, ⟨71, _⟩ => ⟨S1x1, .f32⟩
  | .hbm, ⟨72, _⟩ => ⟨S50000x64, .f32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S_, .f32⟩
  | .hbm, ⟨78, _⟩ => ⟨S1, .f32⟩
  | .hbm, ⟨79, _⟩ => ⟨S1, .f32⟩
  | .hbm, ⟨80, _⟩ => ⟨S1x1, .f32⟩
  | .hbm, ⟨81, _⟩ => ⟨S50000x64, .f32⟩
  | .hbm, ⟨82, _⟩ => ⟨S50000x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S1, .f32⟩
  | .hbm, ⟨87, _⟩ => ⟨S1, .f32⟩
  | .hbm, ⟨88, _⟩ => ⟨S50000x64, .f32⟩
  | .hbm, ⟨89, _⟩ => ⟨S50000x64, .f32⟩
  | .hbm, ⟨90, _⟩ => ⟨S_, .i32⟩
  | .hbm, ⟨91, _⟩ => ⟨S800000, .i32⟩
  | .hbm, ⟨92, _⟩ => ⟨S800000, .i1⟩
  | .hbm, ⟨93, _⟩ => ⟨S_, .i32⟩
  | .hbm, ⟨94, _⟩ => ⟨S800000, .i32⟩
  | .hbm, ⟨95, _⟩ => ⟨S800000, .i32⟩
  | .hbm, ⟨96, _⟩ => ⟨S800000, .i32⟩
  | .hbm, ⟨97, _⟩ => ⟨S800000x1, .i32⟩
  | .hbm, ⟨98, _⟩ => ⟨S800000x64, .f32⟩
  | .hbm, ⟨99, _⟩ => ⟨S_, .f32⟩
  | .hbm, ⟨100, _⟩ => ⟨S50000x64, .f32⟩
  | .hbm, ⟨101, _⟩ => ⟨S800000x1, .i32⟩
  | .hbm, ⟨102, _⟩ => ⟨S50000x64, .f32⟩
  | .hbm, ⟨103, _⟩ => ⟨S50000x64, .f32⟩
  | .hbm, ⟨104, _⟩ => ⟨S50000x64, .f32⟩
  | .hbm, ⟨105, _⟩ => ⟨S1x1, .f32⟩
  | .hbm, ⟨106, _⟩ => ⟨S50000x64, .f32⟩
  | .hbm, ⟨107, _⟩ => ⟨S50000x64, .f32⟩
  | .hbm, ⟨108, _⟩ => ⟨S_, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S1, .f32⟩
  | .hbm, ⟨113, _⟩ => ⟨S1, .f32⟩
  | .hbm, ⟨114, _⟩ => ⟨S1x1, .f32⟩
  | .hbm, ⟨115, _⟩ => ⟨S50000x64, .f32⟩
  | .hbm, ⟨116, _⟩ => ⟨S50000x64, .f32⟩
  | .hbm, ⟨117, _⟩ => ⟨S50000x64, .f32⟩
  | .hbm, ⟨118, _⟩ => ⟨S50000x64, .f32⟩
  | .hbm, ⟨119, _⟩ => ⟨S50000x256, .f32⟩
  | .hbm, ⟨120, _⟩ => ⟨S50000x256, .f32⟩
  | .hbm, ⟨121, _⟩ => ⟨S1x256, .f32⟩
  | .hbm, ⟨122, _⟩ => ⟨S50000x256, .f32⟩
  | .hbm, ⟨123, _⟩ => ⟨S50000x256, .f32⟩
  | .hbm, ⟨124, _⟩ => ⟨S_, .f32⟩
  | .hbm, ⟨125, _⟩ => ⟨S50000x256, .f32⟩
  | .hbm, ⟨126, _⟩ => ⟨S50000x256, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_c_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_cst_18 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call1_cst : Ref sig .tc := ⟨.hbm, 124, rfl⟩
abbrev main_call1_v0 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S1 : S_.BroadcastsInDim S1 (![] : Fin 0 → Fin S1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S1_S1x1_1 : S1.BroadcastsInDim S1x1 (![1] : Fin 1 → Fin S1x1.rank)
  bcast_S1x1_S50000x64_0_1 : S1x1.BroadcastsInDim S50000x64 (![0, 1] : Fin 2 → Fin S50000x64.rank)
  concatenates_S50000x64_S50000x64_S50000x64_S50000x64_S50000x256_d1 : Shape.Concatenates [S50000x64, S50000x64, S50000x64, S50000x64] S50000x256 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.ChebBands.lean ====
/-
  A dense layer over four 64-column operands laid side by side.

  The Chebyshev convolution ends in one affine layer `max (X W + b, 0)` whose left operand `X` is the four terms
  `X0, X1, X2, X3` (64 columns each) laid side by side along the columns, so that `W` has 256 rows. Column `k` of `X`
  meets row `k` of `W`; the columns `64 j … 64 j + 63` are those of `Xj`, and they meet the rows `64 j … 64 j + 63`
  of `W`, its band `j`. Hence
      (X W)(p, q) = ∑_{k < 256} X(p, k) W(k, q) = ∑_j ∑_{k < 64} Xj(p, k) W(64 j + k, q),
  a regrouping of one finite sum. Addition of extended reals is commutative and associative, so this holds at every
  extended real, the infinities included: no finiteness of the entries is used.

  `cheb X0 X1 X2 X3 W b` is the layer in the grouped form, the four products added left to right; `cheb_of_side_by_side`
  says the layer over ANY 256-column array whose columns are those of the four terms is `cheb`, and `cheb_rows` that
  a row of the result depends on the same row of the four terms only.
-/
import proofs.«167157_j28123445854491_2_alg».proof.Proof.LibDense

noncomputable section

open scoped BigOperators

namespace Cert.ChebBands

open Idealize.ShloMosaic Idealize.ShloMosaic.ValueIdx Cert.Dense

/-- A sum over `a + b` consecutive indices is the sum over the first `a` plus the sum over the last `b`. -/
theorem sum_split {A : Type*} [AddCommMonoid A] (a b : ℕ) (f : Fin (a + b) → A) :
    ∑ k, f k = ∑ k : Fin a, f ⟨k.val, by have := k.isLt; omega⟩
      + ∑ k : Fin b, f ⟨a + k.val, by have := k.isLt; omega⟩ :=
  Fin.sum_univ_add f

/-- A sum over 256 indices as its four quarters, added left to right. -/
theorem sum_four {A : Type*} [AddCommMonoid A] (f : Fin 256 → A) :
    ∑ k, f k = ((∑ k : Fin 64, f ⟨k.val, by have := k.isLt; omega⟩
        + ∑ k : Fin 64, f ⟨64 + k.val, by have := k.isLt; omega⟩)
        + ∑ k : Fin 64, f ⟨128 + k.val, by have := k.isLt; omega⟩)
        + ∑ k : Fin 64, f ⟨192 + k.val, by have := k.isLt; omega⟩ := by
  refine (sum_split 192 64 f).trans ?_
  refine congrArg (· + ∑ k : Fin 64, f ⟨192 + k.val, by have := k.isLt; omega⟩) ?_
  refine (sum_split 128 64 (fun k : Fin (128 + 64) => f ⟨k.val, by have := k.isLt; omega⟩)).trans ?_
  refine congrArg (· + ∑ k : Fin 64, f ⟨128 + k.val, by have := k.isLt; omega⟩) ?_
  exact sum_split 64 64 (fun k : Fin (64 + 64) => f ⟨k.val, by have := k.isLt; omega⟩)

/-- Rows `o … o + 63` of a 256-row array: the band that meets the 64 columns starting at `o`. -/
def band {N : ℕ} (W : Mat 256 N) (o : ℕ) (ho : o + 64 ≤ 256) : Mat 64 N :=
  fun i => W (ix2 (⟨o + (i 0).val, by have := idx2_lt0 i; omega⟩ : Fin 256) (c1 i))

theorem band_apply {N : ℕ} (W : Mat 256 N) (o : ℕ) (ho : o + 64 ≤ 256) (k : Fin 64) (q : Fin N) :
    band W o ho (ix2 k q) = W (ix2 (⟨o + k.val, by have := k.isLt; omega⟩ : Fin 256) q) := rfl

/-- The first band starts at row 0. -/
theorem band_zero_apply {N : ℕ} (W : Mat 256 N) (ho : 0 + 64 ≤ 256) (k : Fin 64) (q : Fin N) :
    band W 0 ho (ix2 k q) = W (ix2 (⟨k.val, by have := k.isLt; omega⟩ : Fin 256) q) :=
  congrArg W (congrArg (fun r : Fin 256 => ix2 r q) (Fin.ext (Nat.zero_add k.val)))

/-- The four products, each term against its band of the weights, added left to right. -/
def grouped {M N : ℕ} (X0 X1 X2 X3 : Mat M 64) (W : Mat 256 N) : Mat M N :=
  fun i => ((mm X0 (band W 0 (by omega)) i + mm X1 (band W 64 (by omega)) i) + mm X2 (band W 128 (by omega)) i)
    + mm X3 (band W 192 (by omega)) i

/-- The layer: the grouped product, a one-row bias added to every row, rectified. -/
def cheb {M N : ℕ} (X0 X1 X2 X3 : Mat M 64) (W : Mat 256 N) (b : Mat 1 N) : Mat M N :=
  reluBias (grouped X0 X1 X2 X3 W) b

/-- Row `p` of the product of a 256-column array with the weights, when that row's columns are those of the four terms
    side by side, is the grouped sum: one finite sum regrouped into its four quarters. -/
theorem mm_side_by_side {M N : ℕ} (C : Mat M 256) (X0 X1 X2 X3 : Mat M 64) (W : Mat 256 N) (p : Fin M)
    (h0 : ∀ k : Fin 64, C (ix2 p (⟨k.val, by have := k.isLt; omega⟩ : Fin 256)) = X0 (ix2 p k))
    (h1 : ∀ k : Fin 64, C (ix2 p (⟨64 + k.val, by have := k.isLt; omega⟩ : Fin 256)) = X1 (ix2 p k))
    (h2 : ∀ k : Fin 64, C (ix2 p (⟨128 + k.val, by have := k.isLt; omega⟩ : Fin 256)) = X2 (ix2 p k))
    (h3 : ∀ k : Fin 64, C (ix2 p (⟨192 + k.val, by have := k.isLt; omega⟩ : Fin 256)) = X3 (ix2 p k))
    (q : Fin N) :
    mm C W (ix2 p q) = grouped X0 X1 X2 X3 W (ix2 p q) := by
  show _ = ((mm X0 (band W 0 _) (ix2 p q) + mm X1 (band W 64 _) (ix2 p q)) + mm X2 (band W 128 _) (ix2 p q))
    + mm X3 (band W 192 _) (ix2 p q)
  rw [mm_apply, sum_four]
  simp only [mm_apply, band_apply, Nat.zero_add, h0, h1, h2, h3]

/-- The layer over a 256-column array whose columns are those of the four terms side by side is `cheb`. -/
theorem cheb_of_side_by_side {M N : ℕ} (C : Mat M 256) (X0 X1 X2 X3 : Mat M 64) (W : Mat 256 N) (b : Mat 1 N)
    (h0 : ∀ (p : Fin M) (k : Fin 64), C (ix2 p (⟨k.val, by have := k.isLt; omega⟩ : Fin 256)) = X0 (ix2 p k))
    (h1 : ∀ (p : Fin M) (k : Fin 64), C (ix2 p (⟨64 + k.val, by have := k.isLt; omega⟩ : Fin 256)) = X1 (ix2 p k))
    (h2 : ∀ (p : Fin M) (k : Fin 64), C (ix2 p (⟨128 + k.val, by have := k.isLt; omega⟩ : Fin 256)) = X2 (ix2 p k))
    (h3 : ∀ (p : Fin M) (k : Fin 64), C (ix2 p (⟨192 + k.val, by have := k.isLt; omega⟩ : Fin 256)) = X3 (ix2 p k)) :
    reluBias (mm C W) b = cheb X0 X1 X2 X3 W b := by
  funext i
  obtain ⟨p, q, rfl⟩ : ∃ (p : Fin M) (q : Fin N), i = ix2 p q := ⟨i 0, i 1, eq_ix2 i⟩
  show max (mm C W (ix2 p q) + _) 0 = max (grouped X0 X1 X2 X3 W (ix2 p q) + _) 0
  rw [mm_side_by_side C X0 X1 X2 X3 W p (h0 p) (h1 p) (h2 p) (h3 p) q]

/-- A row of the layer depends on the same row of the four terms only: if row `p'` of four other terms (of any row
    count) is row `p` of these, the two layers agree there. -/
theorem cheb_rows {M M' N : ℕ} (X0 X1 X2 X3 : Mat M 64) (Y0 Y1 Y2 Y3 : Mat M' 64) (W : Mat 256 N) (b : Mat 1 N)
    (p : Fin M) (p' : Fin M')
    (h0 : ∀ k, Y0 (ix2 p' k) = X0 (ix2 p k)) (h1 : ∀ k, Y1 (ix2 p' k) = X1 (ix2 p k))
    (h2 : ∀ k, Y2 (ix2 p' k) = X2 (ix2 p k)) (h3 : ∀ k, Y3 (ix2 p' k) = X3 (ix2 p k)) (q : Fin N) :
    cheb Y0 Y1 Y2 Y3 W b (ix2 p' q) = cheb X0 X1 X2 X3 W b (ix2 p q) := by
  show max ((((mm Y0 _ (ix2 p' q) + mm Y1 _ (ix2 p' q)) + mm Y2 _ (ix2 p' q)) + mm Y3 _ (ix2 p' q)) + b (ix2 0 q)) 0
    = max ((((mm X0 _ (ix2 p q) + mm X1 _ (ix2 p q)) + mm X2 _ (ix2 p q)) + mm X3 _ (ix2 p q)) + b (ix2 0 q)) 0
  rw [mm_rows X0 Y0 _ p p' h0 q, mm_rows X1 Y1 _ p p' h1 q, mm_rows X2 Y2 _ p p' h2 q, mm_rows X3 Y3 _ p p' h3 q]

end Cert.ChebBands

end
-- ==== Proof.KernelBlock.lean ====
/-
  What the kernel body computes from its blocks.

  At a grid point the body holds a block of 2000 rows of each of the four Chebyshev terms (64 columns each), the whole
  weight array and the one-row bias. It multiplies each term's block with its band of 64 rows of the weights — four
  matrix products, each into a zero accumulator —, adds the four products left to right, adds the bias row to every row
  and takes the maximum with zero. A change of float format is the identity on the extended reals, so the band of the
  reformatted weights is the band of the weights. The body's value is therefore `cheb` of its blocks, at every extended
  real.
-/
import proofs.«167157_j28123445854491_2_alg».proof.Proof.Gen.KernelIdeal.Skeleton
import proofs.«167157_j28123445854491_2_alg».proof.Proof.ChebBands

noncomputable section

namespace Cert.KernelIdeal.Layer

open Cert.KernelIdeal Cert.KernelIdeal.Gen Idealize.ShloMosaic Idealize.ShloMosaic.ValueIdx Cert.Dense Cert.ChebBands

/-- Rows `o … o + 63` sliced out of the reformatted weights are the band of the weights: the slice reads row `o + k`,
    and the change of format changes no entry. -/
theorem slice_band (w : Vec Ideal S256x256 .f32) (o : ℕ) (ho : o + 64 ≤ 256) (h : S256x256.Slices ![o, 0] S64x256) :
    extractStridedSlice S64x256 ![o, 0] (truncf (F := Ideal) .bf16 w bitsLt_bf16_f32) h = band w o ho := by
  funext i
  obtain ⟨k, q, rfl⟩ : ∃ (k : Fin 64) (q : Fin 256), i = ix2 k q := ⟨i 0, i 1, eq_ix2 i⟩
  refine (extractStridedSlice_apply ![o, 0] _ h (ix2 k q)
    (ix2 (⟨o + k.val, by have := k.isLt; omega⟩ : Fin 256) q) (fun a => ?_)).trans ?_
  · match a with
    | ⟨0, _⟩ => rfl
    | ⟨1, _⟩ => show q.val = 0 + q.val; omega
  · rfl

/-- The body's stored value is the layer of its blocks. -/
theorem payload (w : Vec Ideal S256x256 .f32) (x0 x1 x2 x3 : Vec Ideal S2000x64 .bf16) (b : Vec Ideal S1x256 .f32) :
    k0_pay1 (F := Ideal) w x0 x1 x2 x3 b = cheb x0 x1 x2 x3 w b := by
  unfold k0_pay1
  simp only [shapeCast_self]
  rw [slice_band w 0 (by omega), slice_band w 64 (by omega), slice_band w 128 (by omega), slice_band w 192 (by omega)]
  simp only [matmul_zero_eq_mm dot_S2000x64_S64x256_S2000x256_1_0_0_1_n_n rfl rfl rfl rfl rfl rfl]
  exact vecReluBias _ b broadcasts_S1x256_S2000x256

end Cert.KernelIdeal.Layer

end
-- ==== Proof.KernelArray.lean ====
/-
  From the blocks to the whole result array.

  The grid has 25 points; at point `t` the four term windows and the result window all sit on rows
  `2000 t … 2000 t + 1999` of their arrays, while the weights' window and the bias window hold their whole arrays at
  every point. The body's value at a point is the layer of its blocks, and a row of the layer depends on the same row
  of the four terms only; so what point `t` writes back is block `t` of ONE array, the layer of the whole arrays the
  region finds in its windows. The 25 blocks tile the 50000 rows — row `r` lies in the block of point `r / 2000` —, so
  after the run the result array is that layer.
-/
import proofs.«167157_j28123445854491_2_alg».proof.Proof.Gen.KernelIdeal.Value
import proofs.«167157_j28123445854491_2_alg».proof.Proof.KernelBlock

noncomputable section

namespace Cert.KernelIdeal.Layer

open Cert.KernelIdeal Cert.KernelIdeal.Gen Cert.KernelIdeal.Value Idealize.ShloMosaic Idealize.ShloMosaic.TcCoe
open Idealize.SL.Sem Idealize.ShloMosaic.ValueIdx Cert.Dense Cert.ChebBands
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The windows' block indices over the 25 grid points, decided: the four term windows move with the result window
    along the rows and stay at column block 0; the weights' and the bias windows stay at block (0, 0); the result
    window's row block index is at most 24. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 24 :=
  (by decide +kernel : ∀ t : Fin grid0.N, _)

/-- Every row block of the result array is some point's. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- The result array: the layer of the arrays the region finds in its windows. -/
abbrev result (c : Dev nD) : S50000x256.Idx → EReal :=
  cheb (V m c main_v90) (V m c main_v91) (V m c main_v92) (V m c main_v93) (V m c main_arg4) (V m c main_v94)

/-- Window 0's block at point `t` holds rows `2000 t … 2000 t + 1999` of its array: entry `(p', k)` of the block is
    entry `(r, k)` of the array, `r` the row `p'` rows into the block. -/
theorem xblk0 (c : Dev nD) (t : Fin cfg0.N) (p' : Fin 2000) (k : Fin 64) (r : Fin 50000)
    (hr : r.val = win0_6.index t (0 : Fin 2) * 2000 + p'.val) :
    iblk m c 0 t (ix2 p' k) = V m c main_v90 (ix2 r k) := by
  obtain ⟨e00, e01, e10, e11, e20, e21, e30, e31, e40, e41, e50, e51, e61, e6b⟩ := idx_facts t
  show V m c main_v90 (((cfg0.win 0).blk t).view.emb (ix2 p' k)) = V m c main_v90 (ix2 r k)
  have h : ((cfg0.win 0).blk t).view.emb (ix2 p' k) = ix2 r k := by
    funext a; apply Fin.ext
    match a with
    | ⟨0, _⟩ => show win0_0.index t (0 : Fin 2) * 2000 + 1 * p'.val = r.val; omega
    | ⟨1, _⟩ => show win0_0.index t (1 : Fin 2) * 64 + 1 * k.val = k.val; omega
  rw [h]

/-- Window 1's block at point `t` holds rows `2000 t … 2000 t + 1999` of its array: entry `(p', k)` of the block is
    entry `(r, k)` of the array, `r` the row `p'` rows into the block. -/
theorem xblk1 (c : Dev nD) (t : Fin cfg0.N) (p' : Fin 2000) (k : Fin 64) (r : Fin 50000)
    (hr : r.val = win0_6.index t (0 : Fin 2) * 2000 + p'.val) :
    iblk m c 1 t (ix2 p' k) = V m c main_v91 (ix2 r k) := by
  obtain ⟨e00, e01, e10, e11, e20, e21, e30, e31, e40, e41, e50, e51, e61, e6b⟩ := idx_facts t
  show V m c main_v91 (((cfg0.win 1).blk t).view.emb (ix2 p' k)) = V m c main_v91 (ix2 r k)
  have h : ((cfg0.win 1).blk t).view.emb (ix2 p' k) = ix2 r k := by
    funext a; apply Fin.ext
    match a with
    | ⟨0, _⟩ => show win0_1.index t (0 : Fin 2) * 2000 + 1 * p'.val = r.val; omega
    | ⟨1, _⟩ => show win0_1.index t (1 : Fin 2) * 64 + 1 * k.val = k.val; omega
  rw [h]

/-- Window 2's block at point `t` holds rows `2000 t … 2000 t + 1999` of its array: entry `(p', k)` of the block is
    entry `(r, k)` of the array, `r` the row `p'` rows into the block. -/
theorem xblk2 (c : Dev nD) (t : Fin cfg0.N) (p' : Fin 2000) (k : Fin 64) (r : Fin 50000)
    (hr : r.val = win0_6.index t (0 : Fin 2) * 2000 + p'.val) :
    iblk m c 2 t (ix2 p' k) = V m c main_v92 (ix2 r k) := by
  obtain ⟨e00, e01, e10, e11, e20, e21, e30, e31, e40, e41, e50, e51, e61, e6b⟩ := idx_facts t
  show V m c main_v92 (((cfg0.win 2).blk t).view.emb (ix2 p' k)) = V m c main_v92 (ix2 r k)
  have h : ((cfg0.win 2).blk t).view.emb (ix2 p' k) = ix2 r k := by
    funext a; apply Fin.ext
    match a with
    | ⟨0, _⟩ => show win0_2.index t (0 : Fin 2) * 2000 + 1 * p'.val = r.val; omega
    | ⟨1, _⟩ => show win0_2.index t (1 : Fin 2) * 64 + 1 * k.val = k.val; omega
  rw [h]

/-- Window 3's block at point `t` holds rows `2000 t … 2000 t + 1999` of its array: entry `(p', k)` of the block is
    entry `(r, k)` of the array, `r` the row `p'` rows into the block. -/
theorem xblk3 (c : Dev nD) (t : Fin cfg0.N) (p' : Fin 2000) (k : Fin 64) (r : Fin 50000)
    (hr : r.val = win0_6.index t (0 : Fin 2) * 2000 + p'.val) :
    iblk m c 3 t (ix2 p' k) = V m c main_v93 (ix2 r k) := by
  obtain ⟨e00, e01, e10, e11, e20, e21, e30, e31, e40, e41, e50, e51, e61, e6b⟩ := idx_facts t
  show V m c main_v93 (((cfg0.win 3).blk t).view.emb (ix2 p' k)) = V m c main_v93 (ix2 r k)
  have h : ((cfg0.win 3).blk t).view.emb (ix2 p' k) = ix2 r k := by
    funext a; apply Fin.ext
    match a with
    | ⟨0, _⟩ => show win0_3.index t (0 : Fin 2) * 2000 + 1 * p'.val = r.val; omega
    | ⟨1, _⟩ => show win0_3.index t (1 : Fin 2) * 64 + 1 * k.val = k.val; omega
  rw [h]

/-- The weights' window holds the whole weight array at every point. -/
theorem wblk (c : Dev nD) (t : Fin cfg0.N) : iblk m c 4 t = V m c main_arg4 := by
  obtain ⟨e00, e01, e10, e11, e20, e21, e30, e31, e40, e41, e50, e51, e61, e6b⟩ := idx_facts t
  funext y
  show V m c main_arg4 (((cfg0.win 4).blk t).view.emb y) = V m c main_arg4 y
  have h : ((cfg0.win 4).blk t).view.emb y = y := by
    funext a; apply Fin.ext
    match a with
    | ⟨0, _⟩ => show win0_4.index t (0 : Fin 2) * 256 + 1 * (y 0).val = (y 0).val; omega
    | ⟨1, _⟩ => show win0_4.index t (1 : Fin 2) * 256 + 1 * (y 1).val = (y 1).val; omega
  rw [h]

/-- The bias window holds the whole one-row bias array at every point. -/
theorem bblk (c : Dev nD) (t : Fin cfg0.N) : iblk m c 5 t = V m c main_v94 := by
  obtain ⟨e00, e01, e10, e11, e20, e21, e30, e31, e40, e41, e50, e51, e61, e6b⟩ := idx_facts t
  funext y
  show V m c main_v94 (((cfg0.win 5).blk t).view.emb y) = V m c main_v94 y
  have h : ((cfg0.win 5).blk t).view.emb y = y := by
    funext a; apply Fin.ext
    match a with
    | ⟨0, _⟩ => show win0_5.index t (0 : Fin 2) * 1 + 1 * (y 0).val = (y 0).val; omega
    | ⟨1, _⟩ => show win0_5.index t (1 : Fin 2) * 256 + 1 * (y 1).val = (y 1).val; omega
  rw [h]

/-- The layer of the blocks at point `t`, at entry `(p', q)`, is the layer of the whole arrays at that entry's place in
    the result array: row `2000 t + p'`, column `q`. -/
theorem block_eq (c : Dev nD) (t : Fin cfg0.N) (j : S2000x256.Idx) :
    cheb (iblk m c 0 t) (iblk m c 1 t) (iblk m c 2 t) (iblk m c 3 t) (iblk m c 4 t) (iblk m c 5 t) j
      = result m c (((cfg0.win 6).blk t).view.emb j) := by
  obtain ⟨p', q, rfl⟩ : ∃ (p' : Fin 2000) (q : Fin 256), j = ix2 p' q := ⟨j 0, j 1, eq_ix2 j⟩
  obtain ⟨e00, e01, e10, e11, e20, e21, e30, e31, e40, e41, e50, e51, e61, e6b⟩ := idx_facts t
  have hr : win0_6.index t (0 : Fin 2) * 2000 + p'.val < 50000 := by have := p'.isLt; omega
  have hemb : ((cfg0.win 6).blk t).view.emb (ix2 p' q)
      = ix2 (⟨win0_6.index t (0 : Fin 2) * 2000 + p'.val, hr⟩ : Fin 50000) q := by
    funext a; apply Fin.ext
    match a with
    | ⟨0, _⟩ =>
      show win0_6.index t (0 : Fin 2) * 2000 + 1 * p'.val = win0_6.index t (0 : Fin 2) * 2000 + p'.val; omega
    | ⟨1, _⟩ => show win0_6.index t (1 : Fin 2) * 256 + 1 * q.val = q.val; omega
  rw [hemb, wblk m c t, bblk m c t]
  exact cheb_rows (V m c main_v90) (V m c main_v91) (V m c main_v92) (V m c main_v93)
    (iblk m c 0 t) (iblk m c 1 t) (iblk m c 2 t) (iblk m c 3 t) (V m c main_arg4) (V m c main_v94)
    ⟨win0_6.index t (0 : Fin 2) * 2000 + p'.val, hr⟩ p'
    (fun k => xblk0 m c t p' k _ rfl) (fun k => xblk1 m c t p' k _ rfl)
    (fun k => xblk2 m c t p' k _ rfl) (fun k => xblk3 m c t p' k _ rfl) q

/-- What point `t` writes back is block `t` of the result array. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  unfold out0_6
  rw [View.canon_unit_zero zero_offsets]
  simp only [View.ld_unit_zero (S := S256x256) zero_offsets, View.ld_unit_zero (S := S2000x64) zero_offsets,
    View.ld_unit_zero (S := S1x256) zero_offsets]
  rw [payload]
  funext j
  exact block_eq m c t j

/-- An index of the result array is in point `t`'s block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v95).slice (win0_6.rect t)).set ↔ _
  rw [View.set_slice_whole, Rect.mem_set_unit]
  exact Iff.rfl

/-- The 25 blocks cover the result array: row `r` lies in the block of the point whose row block index is `r / 2000`. -/
theorem covered (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ =>
    show win0_6.index t (0 : Fin 2) * 2000 ≤ (i 0).val ∧ (i 0).val < win0_6.index t (0 : Fin 2) * 2000 + 2000; omega
  | ⟨1, _⟩ =>
    show win0_6.index t (1 : Fin 2) * 256 ≤ (i 1).val ∧ (i 1).val < win0_6.index t (1 : Fin 2) * 256 + 256; omega

/-- After the run the result array is the layer of the arrays the region found in its windows. -/
theorem final (c : Dev nD) : (dats m 0 c).arrAt 6 cfg0.N = result m c :=
  (dats m 0 c).arrAt_eq_of_cover 6 (result m c) (fun t _ => flushed_eq m c t) covered

/-- The kernel's run, read: the result array at the layer, the arguments unchanged. -/
theorem run : θ_run defs (onTc (τ := τ) (main (F := Ideal))) ⟨m, fun _ => 0, ρ⟩ fun r => ∀ c : Dev nD,
      r.2.mem ((c : Thread nD τ).loc main_v95) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Layer

end
-- ==== Proof.Operands.lean ====
/-
  The arrays the region finds in its six windows.

  Before the region the kernel's program computes, on the host, the same Chebyshev recurrence as the reference, operation
  for operation: the in-degrees by a scatter-add of ones, their clamp at one and the power -1/2, the normalised
  Laplacian's action (scale, gather the source rows, scatter-add them onto the destination rows, scale), and the three
  recurrence steps with the factor 2 / lambda_max. So the arrays it hands to the four term windows are the reference's own
  terms X0 = the signal, X1, X2, X3 — the reference's stages of the same arguments — after a change of float format, which
  is the identity on the extended reals; the weights' window holds the weights as launched, and the bias window the bias
  vector laid out as one row.

  The host operations are read in five stretches, cut where the clamped degrees, X1, X2 and X3 are produced. Over ANY
  buffer contents `W` that hold the arguments and the earlier stretches' results (as the reference's stages of the
  arguments), a stretch leaves its own result as the reference's next stage: one Laplacian step of the recurrence is
  one Laplacian step of the reference, the same composition of the same operations. Nothing of the recurrence is opened.
-/
import proofs.«167157_j28123445854491_2_alg».proof.Proof.Gen.KernelIdeal.Frame
import proofs.«167157_j28123445854491_2_alg».proof.Proof.Gen.ReferenceIdeal.Read
import proofs.«167157_j28123445854491_2_alg».proof.Proof.LibDense

set_option Elab.async false

noncomputable section

namespace Cert.KernelIdeal.Operands

open Cert.KernelIdeal Cert.KernelIdeal.Gen Idealize.ShloMosaic Idealize.ShloMosaic.TcCoe Idealize.SL.Sem
open Idealize.ShloMosaic.StableHlo

/-- The contents after two lines of operations run one after the other. -/
theorem after_append (l₁ l₂ : List (HloOp τ sig (Elt Ideal))) (W : Valuation τ sig (Elt Ideal)) :
    after (l₁ ++ l₂) W = after l₂ (after l₁ W) := by
  induction l₁ generalizing W with
  | nil => rfl
  | cons op l ih => exact ih (op.result W)

/-- A line of operations cut after its first `k`. -/
theorem after_split (k : ℕ) (l : List (HloOp τ sig (Elt Ideal))) (W : Valuation τ sig (Elt Ideal)) :
    after l W = after (l.drop k) (after (l.take k) W) := by
  rw [← after_append, List.take_append_drop]

/-- The contents `W` hold the arguments the recurrence reads (the signal, the edges' sources and destinations,
    lambda_max) and the bias. -/
structure Args (W : Valuation τ sig (Elt Ideal)) (x0 : (⟨S50000x64, .f32⟩ : BufTy).Contents (Elt Ideal)) (x1 x2 : (⟨S800000, .i32⟩ : BufTy).Contents (Elt Ideal))
    (x3 : (⟨S1, .f32⟩ : BufTy).Contents (Elt Ideal)) (x5 : (⟨S256, .f32⟩ : BufTy).Contents (Elt Ideal)) : Prop where
  a0 : W (Proc.devRef .tc main_arg0) = x0
  a1 : W (Proc.devRef .tc main_arg1) = x1
  a2 : W (Proc.devRef .tc main_arg2) = x2
  a3 : W (Proc.devRef .tc main_arg3) = x3
  a5 : W (Proc.devRef .tc main_arg5) = x5

/-- … and the in-degrees clamped at one. -/
structure Clamped (W : Valuation τ sig (Elt Ideal)) (x0 : (⟨S50000x64, .f32⟩ : BufTy).Contents (Elt Ideal)) (x1 x2 : (⟨S800000, .i32⟩ : BufTy).Contents (Elt Ideal))
    (x3 : (⟨S1, .f32⟩ : BufTy).Contents (Elt Ideal)) (x5 : (⟨S256, .f32⟩ : BufTy).Contents (Elt Ideal)) : Prop where
  args : Args W x0 x1 x2 x3 x5
  v4 : W (Proc.devRef .tc main_v4) = Cert.ReferenceIdeal.Read.val_main_v4 (F := Ideal) x2

/-- … the degrees' power -1/2 as a column, the factor 2 / lambda_max, and the first recurrence term. -/
structure Term1 (W : Valuation τ sig (Elt Ideal)) (x0 : (⟨S50000x64, .f32⟩ : BufTy).Contents (Elt Ideal)) (x1 x2 : (⟨S800000, .i32⟩ : BufTy).Contents (Elt Ideal))
    (x3 : (⟨S1, .f32⟩ : BufTy).Contents (Elt Ideal)) (x5 : (⟨S256, .f32⟩ : BufTy).Contents (Elt Ideal)) : Prop where
  args : Args W x0 x1 x2 x3 x5
  v7 : W (Proc.devRef .tc main_v7) = Cert.ReferenceIdeal.Read.val_main_v7 (F := Ideal) x2
  v9 : W (Proc.devRef .tc main_v9) = Cert.ReferenceIdeal.Read.val_main_v9 (F := Ideal) x3
  v33 : W (Proc.devRef .tc main_v33) = Cert.ReferenceIdeal.Read.val_main_v33 (F := Ideal) x0 x1 x2 x3

/-- … and the second recurrence term. -/
structure Term2 (W : Valuation τ sig (Elt Ideal)) (x0 : (⟨S50000x64, .f32⟩ : BufTy).Contents (Elt Ideal)) (x1 x2 : (⟨S800000, .i32⟩ : BufTy).Contents (Elt Ideal))
    (x3 : (⟨S1, .f32⟩ : BufTy).Contents (Elt Ideal)) (x5 : (⟨S256, .f32⟩ : BufTy).Contents (Elt Ideal)) : Prop where
  t1 : Term1 W x0 x1 x2 x3 x5
  v61 : W (Proc.devRef .tc main_v61) = Cert.ReferenceIdeal.Read.val_main_v61 (F := Ideal) x0 x1 x2 x3

/-- … and the third. -/
structure Term3 (W : Valuation τ sig (Elt Ideal)) (x0 : (⟨S50000x64, .f32⟩ : BufTy).Contents (Elt Ideal)) (x1 x2 : (⟨S800000, .i32⟩ : BufTy).Contents (Elt Ideal))
    (x3 : (⟨S1, .f32⟩ : BufTy).Contents (Elt Ideal)) (x5 : (⟨S256, .f32⟩ : BufTy).Contents (Elt Ideal)) : Prop where
  t2 : Term2 W x0 x1 x2 x3 x5
  v89 : W (Proc.devRef .tc main_v89) = Cert.ReferenceIdeal.Read.val_main_v89 (F := Ideal) x0 x1 x2 x3

/-! The outlined clamp's operations read and write their buffers through typed references; at a literal reference the
    transport between a buffer's contents and the value's is the identity. -/
theorem ofBuf_cst_1 (v : (⟨S_, .f32⟩ : BufTy).Contents (Elt Ideal)) :
    (TRef.of (sig := sig) (T := ⟨S_, .f32⟩) main_cst_1).ofBuf v = v := rfl
theorem toBuf_call0_v0 (v : (⟨S_, .f32⟩ : BufTy).Contents (Elt Ideal)) :
    (TRef.of (sig := sig) (T := ⟨S_, .f32⟩) main_call0_v0).toBuf v = v := rfl
theorem ofBuf_call0_v0 (v : (⟨S_, .f32⟩ : BufTy).Contents (Elt Ideal)) :
    (TRef.of (sig := sig) (T := ⟨S_, .f32⟩) main_call0_v0).ofBuf v = v := rfl
theorem toBuf_call0_v1 (v : (⟨S50000, .f32⟩ : BufTy).Contents (Elt Ideal)) :
    (TRef.of (sig := sig) (T := ⟨S50000, .f32⟩) main_call0_v1).toBuf v = v := rfl
theorem ofBuf_call0_v1 (v : (⟨S50000, .f32⟩ : BufTy).Contents (Elt Ideal)) :
    (TRef.of (sig := sig) (T := ⟨S50000, .f32⟩) main_call0_v1).ofBuf v = v := rfl
theorem ofBuf_v3 (v : (⟨S50000, .f32⟩ : BufTy).Contents (Elt Ideal)) :
    (TRef.of (sig := sig) (T := ⟨S50000, .f32⟩) main_v3).ofBuf v = v := rfl
theorem toBuf_v4 (v : (⟨S50000, .f32⟩ : BufTy).Contents (Elt Ideal)) :
    (TRef.of (sig := sig) (T := ⟨S50000, .f32⟩) main_v4).toBuf v = v := rfl

set_option maxHeartbeats 4000000 in
/-- The first stretch: the in-degrees by a scatter-add of ones, and the outlined clamp at one. -/
theorem clamped {W : Valuation τ sig (Elt Ideal)} {x0 : (⟨S50000x64, .f32⟩ : BufTy).Contents (Elt Ideal)} {x1 x2 : (⟨S800000, .i32⟩ : BufTy).Contents (Elt Ideal)}
    {x3 : (⟨S1, .f32⟩ : BufTy).Contents (Elt Ideal)} {x5 : (⟨S256, .f32⟩ : BufTy).Contents (Elt Ideal)}
    (h : Args W x0 x1 x2 x3 x5) : Clamped (after hostOps0_1 (after hostOps0 W)) x0 x1 x2 x3 x5 := by
  obtain ⟨h0, h1, h2, h3, h5⟩ := h
  simp only [hostOps0, hostOps0_1]
  refine ⟨⟨?_, ?_, ?_, ?_, ?_⟩, ?_⟩
  all_goals after_results_simp
  iterate 5 (first | exact h0 | exact h1 | exact h2 | exact h3 | exact h5)
  rw [h2, toBuf_v4, ofBuf_call0_v1, toBuf_call0_v1, ofBuf_call0_v0, toBuf_call0_v0, ofBuf_cst_1, ofBuf_v3]
  rfl

set_option maxHeartbeats 4000000 in
/-- The second stretch: the power -1/2, the factor, one Laplacian step: the first term. -/
theorem term1 {W : Valuation τ sig (Elt Ideal)} {x0 : (⟨S50000x64, .f32⟩ : BufTy).Contents (Elt Ideal)} {x1 x2 : (⟨S800000, .i32⟩ : BufTy).Contents (Elt Ideal)}
    {x3 : (⟨S1, .f32⟩ : BufTy).Contents (Elt Ideal)} {x5 : (⟨S256, .f32⟩ : BufTy).Contents (Elt Ideal)}
    (h : Clamped W x0 x1 x2 x3 x5) : Term1 (after (hostOps0_2.take 35) W) x0 x1 x2 x3 x5 := by
  obtain ⟨⟨h0, h1, h2, h3, h5⟩, h4⟩ := h
  simp only [hostOps0_2, List.take_succ_cons, List.take_zero, List.drop_succ_cons, List.drop_zero]
  refine ⟨⟨?_, ?_, ?_, ?_, ?_⟩, ?_, ?_, ?_⟩ <;> after_results_simp <;> simp only [h0, h1, h2, h3, h5, h4] <;> rfl

set_option maxHeartbeats 4000000 in
/-- The third stretch: one Laplacian step on the first term: the second. -/
theorem term2 {W : Valuation τ sig (Elt Ideal)} {x0 : (⟨S50000x64, .f32⟩ : BufTy).Contents (Elt Ideal)} {x1 x2 : (⟨S800000, .i32⟩ : BufTy).Contents (Elt Ideal)}
    {x3 : (⟨S1, .f32⟩ : BufTy).Contents (Elt Ideal)} {x5 : (⟨S256, .f32⟩ : BufTy).Contents (Elt Ideal)}
    (h : Term1 W x0 x1 x2 x3 x5) : Term2 (after ((hostOps0_2.drop 35).take 34) W) x0 x1 x2 x3 x5 := by
  obtain ⟨⟨h0, h1, h2, h3, h5⟩, h7, h9, h33⟩ := h
  simp only [hostOps0_2, List.take_succ_cons, List.take_zero, List.drop_succ_cons, List.drop_zero]
  refine ⟨⟨⟨?_, ?_, ?_, ?_, ?_⟩, ?_, ?_, ?_⟩, ?_⟩ <;> after_results_simp <;> simp only [h0, h1, h2, h3, h5, h7, h9, h33] <;> rfl

set_option maxHeartbeats 4000000 in
/-- The fourth stretch: one Laplacian step on the second term: the third. -/
theorem term3 {W : Valuation τ sig (Elt Ideal)} {x0 : (⟨S50000x64, .f32⟩ : BufTy).Contents (Elt Ideal)} {x1 x2 : (⟨S800000, .i32⟩ : BufTy).Contents (Elt Ideal)}
    {x3 : (⟨S1, .f32⟩ : BufTy).Contents (Elt Ideal)} {x5 : (⟨S256, .f32⟩ : BufTy).Contents (Elt Ideal)}
    (h : Term2 W x0 x1 x2 x3 x5) : Term3 (after (((hostOps0_2.drop 35).drop 34).take 34) W) x0 x1 x2 x3 x5 := by
  obtain ⟨⟨⟨h0, h1, h2, h3, h5⟩, h7, h9, h33⟩, h61⟩ := h
  simp only [hostOps0_2, List.take_succ_cons, List.take_zero, List.drop_succ_cons, List.drop_zero]
  refine ⟨⟨⟨⟨?_, ?_, ?_, ?_, ?_⟩, ?_, ?_, ?_⟩, ?_⟩, ?_⟩ <;> after_results_simp <;> simp only [h0, h1, h2, h3, h5, h7, h9, h33, h61] <;> rfl

set_option maxHeartbeats 4000000 in
/-- The last stretch: the four terms change float format, and the bias vector is cast to one row. -/
theorem windows {W : Valuation τ sig (Elt Ideal)} {x0 : (⟨S50000x64, .f32⟩ : BufTy).Contents (Elt Ideal)} {x1 x2 : (⟨S800000, .i32⟩ : BufTy).Contents (Elt Ideal)}
    {x3 : (⟨S1, .f32⟩ : BufTy).Contents (Elt Ideal)} {x5 : (⟨S256, .f32⟩ : BufTy).Contents (Elt Ideal)}
    (h : Term3 W x0 x1 x2 x3 x5) :
    after (((hostOps0_2.drop 35).drop 34).drop 34) W (Proc.devRef .tc main_v90) = truncf (F := Ideal) .bf16 x0 bitsLt_bf16_f32
    ∧ after (((hostOps0_2.drop 35).drop 34).drop 34) W (Proc.devRef .tc main_v91)
        = truncf (F := Ideal) .bf16 (Cert.ReferenceIdeal.Read.val_main_v33 (F := Ideal) x0 x1 x2 x3) bitsLt_bf16_f32
    ∧ after (((hostOps0_2.drop 35).drop 34).drop 34) W (Proc.devRef .tc main_v92)
        = truncf (F := Ideal) .bf16 (Cert.ReferenceIdeal.Read.val_main_v61 (F := Ideal) x0 x1 x2 x3) bitsLt_bf16_f32
    ∧ after (((hostOps0_2.drop 35).drop 34).drop 34) W (Proc.devRef .tc main_v93)
        = truncf (F := Ideal) .bf16 (Cert.ReferenceIdeal.Read.val_main_v89 (F := Ideal) x0 x1 x2 x3) bitsLt_bf16_f32
    ∧ after (((hostOps0_2.drop 35).drop 34).drop 34) W (Proc.devRef .tc main_v94) = shapeCast S1x256 x5 shapeCasts_S256_S1x256 := by
  obtain ⟨⟨⟨⟨h0, h1, h2, h3, h5⟩, h7, h9, h33⟩, h61⟩, h89⟩ := h
  simp only [hostOps0_2, List.take_succ_cons, List.take_zero, List.drop_succ_cons, List.drop_zero]
  refine ⟨?_, ?_, ?_, ?_, ?_⟩ <;> after_results_simp <;> simp only [h0, h5, h33, h61, h89] <;> rfl

variable (m : (ℓ : Loc nD τ sig) → Buf (Elt Ideal) ℓ)

/-- The contents the region finds: the launch memory after the five stretches. -/
theorem V_stretches (c : Dev nD) (b : Ref sig .tc) :
    V m c b = after (((hostOps0_2.drop 35).drop 34).drop 34) (after (((hostOps0_2.drop 35).drop 34).take 34)
      (after ((hostOps0_2.drop 35).take 34) (after (hostOps0_2.take 35)
        (after hostOps0_1 (after hostOps0 (fun b => m (c, b))))))) (Proc.devRef .tc b) := by
  dsimp only [Gen.V]
  rw [List.flatten_cons, List.flatten_cons, List.flatten_cons, List.flatten_nil, List.append_nil, after_append,
    after_append, after_split 35 hostOps0_2, after_split 34 (hostOps0_2.drop 35),
    after_split 34 ((hostOps0_2.drop 35).drop 34)]

/-- The launch memory holds the arguments. -/
theorem launch_args (c : Dev nD) :
    Args (fun b => m (c, b)) (m ((c : Thread nD τ).loc main_arg0)) (m ((c : Thread nD τ).loc main_arg1))
      (m ((c : Thread nD τ).loc main_arg2)) (m ((c : Thread nD τ).loc main_arg3)) (m ((c : Thread nD τ).loc main_arg5)) :=
  ⟨rfl, rfl, rfl, rfl, rfl⟩

/-- Window 0 holds the signal, reformatted. -/
theorem term0 (c : Dev nD) :
    V m c main_v90 = truncf (F := Ideal) .bf16 (m ((c : Thread nD τ).loc main_arg0)) bitsLt_bf16_f32 :=
  (V_stretches m c main_v90).trans (windows (term3 (term2 (term1 (clamped (launch_args m c)))))).1

/-- Window 1 holds the reference's first recurrence term of the same arguments, reformatted. -/
theorem window1 (c : Dev nD) :
    V m c main_v91 = truncf (F := Ideal) .bf16
      (Cert.ReferenceIdeal.Read.val_main_v33 (F := Ideal) (m ((c : Thread nD τ).loc main_arg0)) (m ((c : Thread nD τ).loc main_arg1)) (m ((c : Thread nD τ).loc main_arg2)) (m ((c : Thread nD τ).loc main_arg3))) bitsLt_bf16_f32 :=
  (V_stretches m c main_v91).trans (windows (term3 (term2 (term1 (clamped (launch_args m c)))))).2.1

/-- Window 2 holds the reference's second recurrence term, reformatted. -/
theorem window2 (c : Dev nD) :
    V m c main_v92 = truncf (F := Ideal) .bf16
      (Cert.ReferenceIdeal.Read.val_main_v61 (F := Ideal) (m ((c : Thread nD τ).loc main_arg0)) (m ((c : Thread nD τ).loc main_arg1)) (m ((c : Thread nD τ).loc main_arg2)) (m ((c : Thread nD τ).loc main_arg3))) bitsLt_bf16_f32 :=
  (V_stretches m c main_v92).trans (windows (term3 (term2 (term1 (clamped (launch_args m c)))))).2.2.1

/-- Window 3 holds the reference's third recurrence term, reformatted. -/
theorem window3 (c : Dev nD) :
    V m c main_v93 = truncf (F := Ideal) .bf16
      (Cert.ReferenceIdeal.Read.val_main_v89 (F := Ideal) (m ((c : Thread nD τ).loc main_arg0)) (m ((c : Thread nD τ).loc main_arg1)) (m ((c : Thread nD τ).loc main_arg2)) (m ((c : Thread nD τ).loc main_arg3))) bitsLt_bf16_f32 :=
  (V_stretches m c main_v93).trans (windows (term3 (term2 (term1 (clamped (launch_args m c)))))).2.2.2.1

/-- Window 5 holds the bias vector laid out as one row. -/
theorem biasRow (c : Dev nD) :
    V m c main_v94 = Cert.Dense.row (m ((c : Thread nD τ).loc main_arg5)) :=
  ((V_stretches m c main_v94).trans (windows (term3 (term2 (term1 (clamped (launch_args m c)))))).2.2.2.2).trans
    (Cert.Dense.shapeCast_row (m ((c : Thread nD τ).loc main_arg5)) shapeCasts_S256_S1x256)

end Cert.KernelIdeal.Operands

end
-- ==== Proof.ReferenceLayer.lean ====
/-
  The reference's result as the layer.

  The reference lays its four Chebyshev terms side by side along the columns into one array of 256 columns, multiplies it
  with the weights in one matrix product, adds the bias vector to every row and rectifies. Column `64 j + k` of the
  joined array is column `k` of term `j`; so the one product is the sum of the four products of each term with its
  band of the weights, and the reference's result is `cheb` of its own terms, at every extended real.
-/
import proofs.«167157_j28123445854491_2_alg».proof.Proof.Gen.ReferenceIdeal.Read
import proofs.«167157_j28123445854491_2_alg».proof.Proof.ChebBands

noncomputable section

namespace Cert.ReferenceIdeal.Layer

open Cert.ReferenceIdeal Cert.ReferenceIdeal.Gen Cert.ReferenceIdeal.Read Idealize.ShloMosaic Idealize.ShloMosaic.ValueIdx
open Cert.Dense Cert.ChebBands

/-- Columns `0 … 63` of the four terms laid side by side are the columns of term 0. -/
theorem side_by_side_0 (X0 X1 X2 X3 : Mat 50000 64) (p : Fin 50000) (k : Fin 64) :
    concatenate S50000x256 1 [⟨S50000x64, X0⟩, ⟨S50000x64, X1⟩, ⟨S50000x64, X2⟩, ⟨S50000x64, X3⟩] concatenates_S50000x64_S50000x64_S50000x64_S50000x64_S50000x256_d1
      (ix2 p (⟨k.val, by have := k.isLt; omega⟩ : Fin 256)) = X0 (ix2 p k) :=
  concatenate_apply_piece (1 : Fin S50000x256.rank) ([⟨S50000x64, X0⟩, ⟨S50000x64, X1⟩, ⟨S50000x64, X2⟩, ⟨S50000x64, X3⟩] : List ((s : Shape) × (s.Idx → EReal)))
    concatenates_S50000x64_S50000x64_S50000x64_S50000x64_S50000x256_d1 _ 0 (by show (0 : ℕ) < 4; omega) S50000x64 X0 rfl rfl 0 rfl (ix2 p k)
    (fun b hb => by
      match b with
      | ⟨0, _⟩ => rfl
      | ⟨1, _⟩ => exact absurd rfl hb)
    (Nat.zero_add k.val)

/-- Columns `64 … 127` of the four terms laid side by side are the columns of term 1. -/
theorem side_by_side_1 (X0 X1 X2 X3 : Mat 50000 64) (p : Fin 50000) (k : Fin 64) :
    concatenate S50000x256 1 [⟨S50000x64, X0⟩, ⟨S50000x64, X1⟩, ⟨S50000x64, X2⟩, ⟨S50000x64, X3⟩] concatenates_S50000x64_S50000x64_S50000x64_S50000x64_S50000x256_d1
      (ix2 p (⟨64 + k.val, by have := k.isLt; omega⟩ : Fin 256)) = X1 (ix2 p k) :=
  concatenate_apply_piece (1 : Fin S50000x256.rank) ([⟨S50000x64, X0⟩, ⟨S50000x64, X1⟩, ⟨S50000x64, X2⟩, ⟨S50000x64, X3⟩] : List ((s : Shape) × (s.Idx → EReal)))
    concatenates_S50000x64_S50000x64_S50000x64_S50000x64_S50000x256_d1 _ 1 (by show (1 : ℕ) < 4; omega) S50000x64 X1 rfl rfl 64 rfl (ix2 p k)
    (fun b hb => by
      match b with
      | ⟨0, _⟩ => rfl
      | ⟨1, _⟩ => exact absurd rfl hb)
    rfl

/-- Columns `128 … 191` of the four terms laid side by side are the columns of term 2. -/
theorem side_by_side_2 (X0 X1 X2 X3 : Mat 50000 64) (p : Fin 50000) (k : Fin 64) :
    concatenate S50000x256 1 [⟨S50000x64, X0⟩, ⟨S50000x64, X1⟩, ⟨S50000x64, X2⟩, ⟨S50000x64, X3⟩] concatenates_S50000x64_S50000x64_S50000x64_S50000x64_S50000x256_d1
      (ix2 p (⟨128 + k.val, by have := k.isLt; omega⟩ : Fin 256)) = X2 (ix2 p k) :=
  concatenate_apply_piece (1 : Fin S50000x256.rank) ([⟨S50000x64, X0⟩, ⟨S50000x64, X1⟩, ⟨S50000x64, X2⟩, ⟨S50000x64, X3⟩] : List ((s : Shape) × (s.Idx → EReal)))
    concatenates_S50000x64_S50000x64_S50000x64_S50000x64_S50000x256_d1 _ 2 (by show (2 : ℕ) < 4; omega) S50000x64 X2 rfl rfl 128 rfl (ix2 p k)
    (fun b hb => by
      match b with
      | ⟨0, _⟩ => rfl
      | ⟨1, _⟩ => exact absurd rfl hb)
    rfl

/-- Columns `192 … 255` of the four terms laid side by side are the columns of term 3. -/
theorem side_by_side_3 (X0 X1 X2 X3 : Mat 50000 64) (p : Fin 50000) (k : Fin 64) :
    concatenate S50000x256 1 [⟨S50000x64, X0⟩, ⟨S50000x64, X1⟩, ⟨S50000x64, X2⟩, ⟨S50000x64, X3⟩] concatenates_S50000x64_S50000x64_S50000x64_S50000x64_S50000x256_d1
      (ix2 p (⟨192 + k.val, by have := k.isLt; omega⟩ : Fin 256)) = X3 (ix2 p k) :=
  concatenate_apply_piece (1 : Fin S50000x256.rank) ([⟨S50000x64, X0⟩, ⟨S50000x64, X1⟩, ⟨S50000x64, X2⟩, ⟨S50000x64, X3⟩] : List ((s : Shape) × (s.Idx → EReal)))
    concatenates_S50000x64_S50000x64_S50000x64_S50000x64_S50000x256_d1 _ 3 (by show (3 : ℕ) < 4; omega) S50000x64 X3 rfl rfl 192 rfl (ix2 p k)
    (fun b hb => by
      match b with
      | ⟨0, _⟩ => rfl
      | ⟨1, _⟩ => exact absurd rfl hb)
    rfl

/-- The reference's result is the layer of its own terms: the signal and the three recurrence stages. -/
theorem result_eq (a0 : (⟨S50000x64, .f32⟩ : BufTy).Contents (Elt Ideal)) (a1 a2 : (⟨S800000, .i32⟩ : BufTy).Contents (Elt Ideal))
    (a3 : (⟨S1, .f32⟩ : BufTy).Contents (Elt Ideal)) (a4 : (⟨S256x256, .f32⟩ : BufTy).Contents (Elt Ideal))
    (a5 : (⟨S256, .f32⟩ : BufTy).Contents (Elt Ideal)) :
    val_main_v95 (F := Ideal) a0 a1 a2 a3 a4 a5
      = cheb a0 (val_main_v33 (F := Ideal) a0 a1 a2 a3) (val_main_v61 (F := Ideal) a0 a1 a2 a3) (val_main_v89 (F := Ideal) a0 a1 a2 a3) a4 (row a5) := by
  unfold val_main_v95 val_main_v94 val_main_v93 val_main_v92 val_main_call1_v0 val_main_call1_cst val_main_v91 val_main_v90
  generalize val_main_v33 (F := Ideal) a0 a1 a2 a3 = X1
  generalize val_main_v61 (F := Ideal) a0 a1 a2 a3 = X2
  generalize val_main_v89 (F := Ideal) a0 a1 a2 a3 = X3
  refine (hostReluBias _ a5 bcast_S256_S1x256_1 bcast_S1x256_S50000x256_0_1 bcast_S_S50000x256).trans ?_
  rw [hostDot_eq_mm dot_S50000x256_S256x256_S50000x256_1_0_0_1_n_n rfl rfl rfl rfl rfl rfl]
  exact cheb_of_side_by_side _ a0 X1 X2 X3 a4 (row a5) (side_by_side_0 a0 X1 X2 X3) (side_by_side_1 a0 X1 X2 X3)
    (side_by_side_2 a0 X1 X2 X3) (side_by_side_3 a0 X1 X2 X3)

end Cert.ReferenceIdeal.Layer

end
-- ==== Proof.lean ====
/-
  The Chebyshev graph convolution's final dense layer: the kernel against its reference, on the extended reals.

  Both programs compute, on the host and operation for operation alike, the Chebyshev terms X0 = the signal and
  X1, X2, X3 of the normalised graph Laplacian's recurrence (in-degrees by a scatter-add, their clamp and power -1/2, a
  gather of source rows and a scatter-add onto destination rows per step, the factor 2 / lambda_max). They differ only in
  the last layer `max (X W + b, 0)`, `X` the four terms side by side:
    * the reference joins the four terms along the columns and takes ONE product with the 256-row weights;
    * the kernel, on 25 blocks of 2000 rows, takes FOUR products, each term's block against its band of 64 rows of the
      weights, and adds them left to right; its terms and weights pass through a change of float format first.
  A change of float format is the identity on the extended reals, and
      ∑_{k < 256} X(p, k) W(k, q) = ∑_{j < 4} ∑_{k < 64} Xj(p, k) W(64 j + k, q)
  is one finite sum regrouped; addition of extended reals is commutative and associative, so the two results agree at
  every extended real, the infinities included: the precondition (finite inputs) is never opened.

  The modules: ChebBands (the regrouping and the layer `cheb`, over abstract arrays), KernelBlock (the kernel body's value
  is `cheb` of its blocks), KernelArray (the 25 blocks tile the result: the kernel's result array is `cheb` of the arrays
  in its windows), Operands (those arrays are the reference's own terms of the same arguments), ReferenceLayer (the
  reference's result is `cheb` of its terms). The kernel's program rewrote nothing on its way to the extended reals, so
  there is nothing to preserve; the three frames are the generated runs.
-/
import proofs.«167157_j28123445854491_2_alg».proof.Defs
import proofs.«167157_j28123445854491_2_alg».proof.Proof.Gen.Kernel
import proofs.«167157_j28123445854491_2_alg».proof.Proof.Gen.Kernel.Skeleton
import proofs.«167157_j28123445854491_2_alg».proof.Proof.Gen.Kernel.Launch
import proofs.«167157_j28123445854491_2_alg».proof.Proof.Gen.Kernel.Points
import proofs.«167157_j28123445854491_2_alg».proof.Proof.Gen.Kernel.Frame
import proofs.«167157_j28123445854491_2_alg».proof.Proof.Gen.KernelIdeal
import proofs.«167157_j28123445854491_2_alg».proof.Proof.Gen.KernelIdeal.Skeleton
import proofs.«167157_j28123445854491_2_alg».proof.Proof.Gen.KernelIdeal.Launch
import proofs.«167157_j28123445854491_2_alg».proof.Proof.Gen.KernelIdeal.Points
import proofs.«167157_j28123445854491_2_alg».proof.Proof.Gen.KernelIdeal.Frame
import proofs.«167157_j28123445854491_2_alg».proof.Proof.Gen.ReferenceIdeal
import proofs.«167157_j28123445854491_2_alg».proof.Proof.Gen.Pre_finite_inputs
import proofs.«167157_j28123445854491_2_alg».proof.Proof.Gen.KernelIdeal.Value
import proofs.«167157_j28123445854491_2_alg».proof.Proof.Gen.ReferenceIdeal.Run
import proofs.«167157_j28123445854491_2_alg».proof.Proof.Gen.ReferenceIdeal.Read
import proofs.«167157_j28123445854491_2_alg».proof.Proof.KernelArray
import proofs.«167157_j28123445854491_2_alg».proof.Proof.Operands
import proofs.«167157_j28123445854491_2_alg».proof.Proof.ReferenceLayer
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's program is read at the extended reals as printed: no rewrite to account for. -/
theorem preserves : Cert.preserves_Kernel_KernelIdeal := trivial

/-- The layer respects equality of each of its six operands. -/
theorem cheb_congr {M N : ℕ} {X0 Y0 X1 Y1 X2 Y2 X3 Y3 : Cert.Dense.Mat M 64} {W W' : Cert.Dense.Mat 256 N}
    {b b' : Cert.Dense.Mat 1 N} (h0 : X0 = Y0) (h1 : X1 = Y1) (h2 : X2 = Y2) (h3 : X3 = Y3) (hW : W = W') (hb : b = b') :
    Cert.ChebBands.cheb X0 X1 X2 X3 W b = Cert.ChebBands.cheb Y0 Y1 Y2 Y3 W' b' := by
  subst h0 h1 h2 h3 hW hb; rfl

/-- A change of float format is the identity on arrays of extended reals. -/
theorem reformat_id {s : Shape} (X : FVec Ideal s .f32) (h : FTy.bits .bf16 < FTy.bits .f32) :
    truncf (F := Ideal) .bf16 X h = X := rfl

/-- From memories agreeing on the arguments the kernel's result array ends at `cheb` of the arrays in its windows and the
    reference's at `cheb` of its own terms; the windows' arrays ARE those terms (up to a change of format, the identity),
    the weights as launched and the bias as one row: one array. -/
theorem algebraic : Cert.algebraic_KernelIdeal_ReferenceIdeal := by
  intro m ρ m' ρ' _ hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v95_eq, (hagree c).1, (hagree c).2.1, (hagree c).2.2.1, (hagree c).2.2.2.1,
    (hagree c).2.2.2.2.1, (hagree c).2.2.2.2.2, Cert.ReferenceIdeal.Layer.result_eq]
  exact cheb_congr
    ((Cert.KernelIdeal.Operands.term0 m c).trans (reformat_id _ _)).symm
    ((Cert.KernelIdeal.Operands.window1 m c).trans (reformat_id _ _)).symm
    ((Cert.KernelIdeal.Operands.window2 m c).trans (reformat_id _ _)).symm
    ((Cert.KernelIdeal.Operands.window3 m c).trans (reformat_id _ _)).symm
    (Cert.KernelIdeal.Gen.V_main_arg4 m c).symm
    (Cert.KernelIdeal.Operands.biasRow m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
